-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2048x128 : Shape := ⟨3, ![128, 2048, 128]⟩
abbrev S2x128 : Shape := ⟨2, ![2, 128]⟩
abbrev S2 : Shape := ⟨1, ![2]⟩
abbrev S_ : Shape := ⟨0, ![]⟩

class Facts : Prop where
  bcast_S_S128x2048x128 : S_.BroadcastsInDim S128x2048x128 (![] : Fin 0 → Fin S128x2048x128.rank)
  reducesTo_S128x2048x128_S_d0_1_2 : S128x2048x128.ReducesTo [0, 1, 2] S_
  h_S_ : 0 < S_.numel
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn {F : FTy → Type} [FloatOps F] (main_arg0 : FVec F S128x2048x128 .f32) (main_arg1 : FVec F S2x128 .f32) (main_arg2 : FVec F S2 .f32) : IVec S_ 1 :=
  let main_v0 : FVec F S128x2048x128 .f32 := Host.absf main_arg0
  let main_cst : FVec F S_ .f32 := constant S_ .f32 0x7F800000#32
  let main_v1 : FVec F S128x2048x128 .f32 := broadcastInDim S128x2048x128 ![] bcast_S_S128x2048x128 main_cst
  let main_v2 : IVec S128x2048x128 1 := cmpf .olt main_v0 main_v1
  let main_c : IVec S_ 1 := constantI S_ 1 1#1
  let main_v3 : IVec S_ 1 := (fun x v => Host.reduce IntOp.andi x v reducesTo_S128x2048x128_S_d0_1_2 h_S_) main_v2 main_c
  let main_v4 : FVec F S2x128 .f32 := Host.absf main_arg1
  let main_cst_0 : FVec F S_ .f32 := constant S_ .f32 0x7F800000#32
  let main_v5 : FVec F S2x128 .f32 := broadcastInDim S2x128 ![] bcast_S_S2x128 main_cst_0
  let main_v6 : IVec S2x128 1 := cmpf .olt main_v4 main_v5
  let main_c_1 : IVec S_ 1 := constantI S_ 1 1#1
  let main_v7 : IVec S_ 1 := (fun x v => Host.reduce IntOp.andi x v reducesTo_S2x128_S_d0_1 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  main_v13
-- ==== Kernel.lean ====
abbrev S128x2048x128 : Shape := ⟨3, ![128, 2048, 128]⟩
abbrev S2x128 : Shape := ⟨2, ![2, 128]⟩
abbrev S2 : Shape := ⟨1, ![2]⟩
abbrev S1x128 : Shape := ⟨2, ![1, 128]⟩
abbrev S128 : Shape := ⟨1, ![128]⟩
abbrev S1 : Shape := ⟨1, ![1]⟩
abbrev S_ : Shape := ⟨0, ![]⟩
abbrev S1x2048 : Shape := ⟨2, ![1, 2048]⟩
abbrev S128x2048 : Shape := ⟨2, ![128, 2048]⟩
abbrev S8x2048x128 : Shape := ⟨3, ![8, 2048, 128]⟩
abbrev S8x2048 : Shape := ⟨2, ![8, 2048]⟩
abbrev S16384x128 : Shape := ⟨2, ![16384, 128]⟩
abbrev S1x16384 : Shape := ⟨2, ![1, 16384]⟩
abbrev S128x2048x1 : Shape := ⟨3, ![128, 2048, 1]⟩
abbrev S128x2048x2 : Shape := ⟨3, ![128, 2048, 2]⟩

abbrev nBuf : Space → Nat
  | .hbm => 20
  | .vmem => 8
  | .smem => 0
  | _ => 0

abbrev bufTy : (tb : Table) → Fin (tcTables nBuf tb) → BufTy
  | .hbm, ⟨0, _⟩ => ⟨S128x2048x128, .f32⟩
  | .hbm, ⟨1, _⟩ => ⟨S2x128, .f32⟩
  | .hbm, ⟨2, _⟩ => ⟨S2, .f32⟩
  | .hbm, ⟨3, _⟩ => ⟨S1x128, .f32⟩
  | .hbm, ⟨4, _⟩ => ⟨S128, .f32⟩
  | .hbm, ⟨5, _⟩ => ⟨S1x128, .f32⟩
  | .hbm, ⟨6, _⟩ => ⟨S128, .f32⟩
  | .hbm, ⟨7, _⟩ => ⟨S128, .f32⟩
  | .hbm, ⟨8, _⟩ => ⟨S1, .f32⟩
  | .hbm, ⟨9, _⟩ => ⟨S_, .f32⟩
  | .hbm, ⟨10, _⟩ => ⟨S1, .f32⟩
  | .hbm, ⟨11, _⟩ => ⟨S_, .f32⟩
  | .hbm, ⟨12, _⟩ => ⟨S_, .f32⟩
  | .hbm, ⟨13, _⟩ => ⟨S1x128, .f32⟩
  | .hbm, ⟨14, _⟩ => ⟨S1x2048, .f32⟩
  | .hbm, ⟨15, _⟩ => ⟨S128x2048, .f32⟩
  | .hbm, ⟨16, _⟩ => ⟨S128x2048, .f32⟩
  | .hbm, ⟨17, _⟩ => ⟨S128x2048x1, .f32⟩
  | .hbm, ⟨18, _⟩ => ⟨S128x2048x1, .f32⟩
  | .hbm, ⟨19, _⟩ => ⟨S128x2048x2, .f32⟩
  | .local _ .vmem, ⟨0, _⟩ => ⟨S8x2048x128, .f32⟩
  | .local _ .vmem, ⟨1, _⟩ => ⟨S8x2048x128, .f32⟩
  | .local _ .vmem, ⟨2, _⟩ => ⟨S1x128, .f32⟩
  | .local _ .vmem, ⟨3, _⟩ => ⟨S1x2048, .f32⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | .local _ .vmem, ⟨7, _⟩ => ⟨S8x2048, .f32⟩
  | _, _ => ⟨S128x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12_0 : Ref sig .tc := ⟨.hbm, 15, rfl⟩
abbrev main_v12_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x128_S1x128_1_0 : S2x128.Slices ![1, 0] S1x128
  shapeCasts_S1x128_S128 : S1x128.ShapeCasts S128
  slices_S2x128_S1x128_0_0 : S2x128.Slices ![0, 0] S1x128
  slices_S2_S1_1 : S2.Slices ![1] S1
  shapeCasts_S1_S_ : S1.ShapeCasts S_
  slices_S2_S1_0 : S2.Slices ![0] S1
  shapeCasts_S128_S1x128 : S128.ShapeCasts S1x128
  bcast_S_S1x2048 : S_.BroadcastsInDim S1x2048 (![] : Fin 0 → Fin S1x2048.rank)
  inb_S8x2048x128_S8x2048x128_0_0_0 : ∀ a, (![0, 0, 0] : Fin 3 → Nat) a + S8x2048x128.size a ≤ S8x2048x128.size a
  h_S8x2048x128 : 0 < S8x2048x128.numel
  shapeCasts_S8x2048x128_S16384x128 : S8x2048x128.ShapeCasts S16384x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x16384_S8x2048 : S1x16384.ShapeCasts S8x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S8x2048 : S1x2048.Broadcasts S8x2048
  inb_S8x2048_S8x2048_0_0 : ∀ a, (![0, 0] : Fin 2 → Nat) a + S8x2048.size a ≤ S8x2048.size a
  h_S8x2048 : 0 < S8x2048.numel
  bcast_S128x2048_S128x2048x1_0_1 : S128x2048.BroadcastsInDim S128x2048x1 (![0, 1] : Fin 2 → Fin S128x2048x1.rank)
  concatenates_S128x2048x1_S128x2048x1_S128x2048x2_d2 : Shape.Concatenates [S128x2048x1, S128x2048x1] S128x2048x2 2
  dot_S1x128_S16384x128_S1x16384_1_1_0_0_n_n_wf : DotDims.WF S1x128 S16384x128 S1x16384 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048x128.size a ≤ S128x2048x128.size a
  hwx0_0 : ∀ i : grid0.Coords, EltTy.bits .f32 = 32 ∨ (Rect.block (s := S128x2048x128) S8x2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x2048.size a ≤ S128x2048.size a
  hwx0_3 : ∀ i : grid0.Coords, EltTy.bits .f32 = 32 ∨ (Rect.block (s := S128x2048) S8x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x2048.size a ≤ S128x2048.size a
  hwx0_4 : ∀ i : grid0.Coords, EltTy.bits .f32 = 32 ∨ (Rect.block (s := S128x2048) S8x2048.size (cc0_transform_4 i) (hinb0_4 i)).WholeWords (EltTy.packing .f32)

variable [Facts₀]

def dot_S1x128_S16384x128_S1x16384_1_1_0_0_n_n : DotDims S1x128 S16384x128 S1x16384 where
  lhsContracting := [1]
  rhsContracting := [1]
  lhsNonContracting := [0]
  rhsNonContracting := [0]
  lhsBatch := []
  rhsBatch := []
  wf := dot_S1x128_S16384x128_S1x16384_1_1_0_0_n_n_wf

abbrev win0_0 : Pipeline.Window sig grid0 :=
  Pipeline.Window.ofSpec (Memref.whole main_arg0) S8x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12_0) S8x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_1) S8x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x2048x128 : Shape := ⟨3, ![128, 2048, 128]⟩
abbrev S2x128 : Shape := ⟨2, ![2, 128]⟩
abbrev S2 : Shape := ⟨1, ![2]⟩
abbrev S128x2048x2 : Shape := ⟨3, ![128, 2048, 2]⟩
abbrev S1x1x2 : Shape := ⟨3, ![1, 1, 2]⟩
abbrev S_ : Shape := ⟨0, ![]⟩
abbrev S128x2048 : Shape := ⟨2, ![128, 2048]⟩
abbrev S128x2048x1 : Shape := ⟨3, ![128, 2048, 1]⟩

abbrev nBuf : Space → Nat
  | .hbm => 21
  | .vmem => 0
  | .smem => 0
  | _ => 0

abbrev bufTy : (tb : Table) → Fin (tcTables nBuf tb) → BufTy
  | .hbm, ⟨0, _⟩ => ⟨S128x2048x128, .f32⟩
  | .hbm, ⟨1, _⟩ => ⟨S2x128, .f32⟩
  | .hbm, ⟨2, _⟩ => ⟨S2, .f32⟩
  | .hbm, ⟨3, _⟩ => ⟨S128x2048x2, .f32⟩
  | .hbm, ⟨4, _⟩ => ⟨S1x1x2, .f32⟩
  | .hbm, ⟨5, _⟩ => ⟨S128x2048x2, .f32⟩
  | .hbm, ⟨6, _⟩ => ⟨S128x2048x2, .f32⟩
  | .hbm, ⟨7, _⟩ => ⟨S_, .f32⟩
  | .hbm, ⟨8, _⟩ => ⟨S128x2048, .f32⟩
  | .hbm, ⟨9, _⟩ => ⟨S_, .f32⟩
  | .hbm, ⟨10, _⟩ => ⟨S128x2048, .f32⟩
  | .hbm, ⟨11, _⟩ => ⟨S128x2048, .f32⟩
  | .hbm, ⟨12, _⟩ => ⟨S128x2048x1, .f32⟩
  | .hbm, ⟨13, _⟩ => ⟨S128x2048x2, .f32⟩
  | .hbm, ⟨14, _⟩ => ⟨S128x2048x2, .f32⟩
  | .hbm, ⟨15, _⟩ => ⟨S128x2048x2, .f32⟩
  | .hbm, ⟨16, _⟩ => ⟨S_, .f32⟩
  | .hbm, ⟨17, _⟩ => ⟨S128x2048, .f32⟩
  | .hbm, ⟨18, _⟩ => ⟨S128x2048x1, .f32⟩
  | .hbm, ⟨19, _⟩ => ⟨S128x2048x2, .f32⟩
  | .hbm, ⟨20, _⟩ => ⟨S128x2048x2, .f32⟩
  | _, _ => ⟨S128x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  bcast_S2_S1x1x2_2 : S2.BroadcastsInDim S1x1x2 (![2] : Fin 1 → Fin S1x1x2.rank)
  bcast_S1x1x2_S128x2048x2_0_1_2 : S1x1x2.BroadcastsInDim S128x2048x2 (![0, 1, 2] : Fin 3 → Fin S128x2048x2.rank)
  reducesTo_S128x2048x2_S128x2048_d2 : S128x2048x2.ReducesTo [2] S128x2048
  h_S_ : 0 < S_.numel
  bcast_S_S128x2048 : S_.BroadcastsInDim S128x2048 (![] : Fin 0 → Fin S128x2048.rank)
  bcast_S128x2048_S128x2048x1_0_1 : S128x2048.BroadcastsInDim S128x2048x1 (![0, 1] : Fin 2 → Fin S128x2048x1.rank)
  bcast_S128x2048x1_S128x2048x2_0_1_2 : S128x2048x1.BroadcastsInDim S128x2048x2 (![0, 1, 2] : Fin 3 → Fin S128x2048x2.rank)
  dot_S128x2048x128_S2x128_S128x2048x2_2_1_01_0_n_n_wf : DotDims.WF S128x2048x128 S2x128 S128x2048x2 [2] [1] [0, 1] [0] [] []

variable [Facts₀]

def dot_S128x2048x128_S2x128_S128x2048x2_2_1_01_0_n_n : DotDims S128x2048x128 S2x128 S128x2048x2 where
  lhsContracting := [2]
  rhsContracting := [1]
  lhsNonContracting := [0, 1]
  rhsNonContracting := [0]
  lhsBatch := []
  rhsBatch := []
  wf := dot_S128x2048x128_S2x128_S128x2048x2_2_1_01_0_n_n_wf

class Facts : Prop extends Facts₀ where

variable [Facts]
-- ==== Proof.Finite.lean ====
/-
  The precondition, read back: every entry of every argument is a real number.

  The precondition is the conjunction of three tests, one per argument: the absolute value of every entry is below
  plus infinity. An extended real whose absolute value (the larger of itself and its negation) is below the top element
  is neither infinity, so it is a real number; a conjunction over all entries that holds gives the test at each entry.
-/
import proofs.«135976_g39943195853502_cont_8to1_b_465_27_alg».proof.Pre_finite_inputs
import Idealize.ShloMosaic.Lib.ReduceAll
import Idealize.ShloMosaic.Lib.ValueIdx
import Idealize.ShloMosaic.PureOps.Ideal

noncomputable section

namespace Cert.Finite

open Idealize.ShloMosaic

/-- The word of the float +inf denotes the top element. -/
theorem inf_f32 : Ideal.ofBits .f32 0x7F800000#32 = ⊤ := by
  simp [Ideal.ofBits, Ideal.ieee]

/-- An extended real whose absolute value is below plus infinity is a real number. -/
theorem real_of_abs_lt (x : EReal)
    (h : Ideal.cmp .olt (max x (-x)) (Ideal.ofBits .f32 0x7F800000#32) = 1#1) : ∃ r : ℝ, x = (r : EReal) := by
  rw [inf_f32] at h
  induction x using EReal.rec with
  | bot => simp [Ideal.cmp] at h
  | coe r => exact ⟨r, rfl⟩
  | top => simp [Ideal.cmp] at h

/-- The rank-zero shape has one index. -/
instance : Subsingleton (⟨0, ![]⟩ : Shape).Idx := ⟨fun _ _ => funext fun d => d.elim0⟩

/-- Under the precondition every entry of the three arguments is a real number. -/
theorem entries_real [Cert.Pre_finite_inputs.Facts]
    (x0 : FVec Ideal ⟨3, ![128, 2048, 128]⟩ .f32) (x1 : FVec Ideal ⟨2, ![2, 128]⟩ .f32) (x2 : FVec Ideal ⟨1, ![2]⟩ .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h' := congrFun h ValueIdx.ix0
  dsimp only [Cert.Pre_finite_inputs.fn] at h'
  obtain ⟨h01, h2⟩ := IntOp.andi_eq_one.mp h'
  obtain ⟨h0, h1⟩ := IntOp.andi_eq_one.mp h01
  exact ⟨fun i => real_of_abs_lt _ (Host.reduce_andi_all _ _ _ _ ValueIdx.ix0 h0 i),
    fun i => real_of_abs_lt _ (Host.reduce_andi_all _ _ _ _ ValueIdx.ix0 h1 i),
    fun i => real_of_abs_lt _ (Host.reduce_andi_all _ _ _ _ ValueIdx.ix0 h2 i)⟩

end Cert.Finite
-- ==== Proof.LibMatRead.lean ====
/-
  Two matrix products read at an index, over the extended reals, for any dimension record with the stated axes: the
  product that contracts the second axis of both operands (rows against rows), and the one that contracts the second
  axis of the left with the first of the right (rows against columns). Into a zero accumulator each is the plain sum
  over the shared axis of the products of the entries; the contraction's index type has one coordinate, and the sum is
  re-indexed by it.
-/
import Idealize.ShloMosaic.PureOps.Ideal.Laws
import Idealize.ShloMosaic.Lib.ValueIdx

noncomputable section
open scoped BigOperators
open Idealize.ShloMosaic Idealize.ShloMosaic.ValueIdx

namespace Cert.MatRead

/-- A product that contracts the second axis of both operands, into a zero accumulator, read at an index: the sum over
    the shared axis of row `a` of the left operand times row `b` of the right. -/
theorem matmul_rows_apply {m k n : Nat} {φ₁ φ₂ : FTy}
    (d : DotDims ⟨2, ![m, k]⟩ ⟨2, ![n, k]⟩ ⟨2, ![m, n]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision)
    (A : FVec Ideal ⟨2, ![m, k]⟩ φ₁) (B : FVec Ideal ⟨2, ![n, k]⟩ φ₂) (a : Fin m) (b : Fin n) :
    FloatOps.matmul d prec A B (constant ⟨2, ![m, n]⟩ .f32 0x00000000#32) (ix2 a b)
      = ∑ c : Fin k, A (ix2 a c) * B (ix2 b c) := by
  have hr1 : d.contr.rank = 1 := by rw [d.rank_contr, hlc]; rfl
  have hs : d.contr.size ⟨0, by omega⟩ = k := by
    have h := d.size_contr 0 (by rw [hlc]; exact Nat.one_pos)
    simp only [hlc] at h
    exact h
  have key0 : ∀ (i : Nat) (h : i < 2), i = 0 → ((ix2 a b ⟨i, h⟩).val : Nat) = a.val := by
    intro i h hi; subst hi; rfl
  have key1 : ∀ (i : Nat) (h : i < 2), i = 1 → ((ix2 a b ⟨i, h⟩).val : Nat) = b.val := by
    intro i h hi; subst hi; rfl
  rw [Ideal.matmul_constant_zero_apply, ← Equiv.sum_comp (contrEquiv1 d k hr1 hs).symm]
  refine Finset.sum_congr rfl fun c _ => ?_
  have c2 := contrEquiv1_symm_val d k hr1 hs c
  have l2 : d.lhsIdx (ix2 a b) ((contrEquiv1 d k hr1 hs).symm c) = ix2 a c := by
    funext ax; apply Fin.ext
    match ax with
    | ⟨0, _⟩ => simp [DotDims.lhsIdx, hlc, hln, hlb]; exact key0 _ _ (by simp [hlb, hln])
    | ⟨1, _⟩ => exact (d.lhsIdx_val_of_single hlc _ _).trans c2
  have r2 : d.rhsIdx (ix2 a b) ((contrEquiv1 d k hr1 hs).symm c) = ix2 b c := by
    funext ax; apply Fin.ext
    match ax with
    | ⟨0, _⟩ => simp [DotDims.rhsIdx, hrc, hrn, hrb]; exact key1 _ _ (by simp [hlb, hln, hrn])
    | ⟨1, _⟩ => exact (d.rhsIdx_val_of_single hrc _ _).trans c2
  rw [l2, r2]

/-- A product that contracts the second axis of the left operand with the first of the right, into a zero accumulator,
    read at an index: row `a` of the left operand times column `b` of the right. -/
theorem matmul_row_col_apply {m k n : Nat} {φ₁ φ₂ : FTy}
    (d : DotDims ⟨2, ![m, k]⟩ ⟨2, ![k, n]⟩ ⟨2, ![m, n]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (A : FVec Ideal ⟨2, ![m, k]⟩ φ₁) (B : FVec Ideal ⟨2, ![k, n]⟩ φ₂) (a : Fin m) (b : Fin n) :
    FloatOps.matmul d prec A B (constant ⟨2, ![m, n]⟩ .f32 0x00000000#32) (ix2 a b)
      = ∑ c : Fin k, A (ix2 a c) * B (ix2 c b) := by
  have hr1 : d.contr.rank = 1 := by rw [d.rank_contr, hlc]; rfl
  have hs : d.contr.size ⟨0, by omega⟩ = k := by
    have h := d.size_contr 0 (by rw [hlc]; exact Nat.one_pos)
    simp only [hlc] at h
    exact h
  have key0 : ∀ (i : Nat) (h : i < 2), i = 0 → ((ix2 a b ⟨i, h⟩).val : Nat) = a.val := by
    intro i h hi; subst hi; rfl
  have key1 : ∀ (i : Nat) (h : i < 2), i = 1 → ((ix2 a b ⟨i, h⟩).val : Nat) = b.val := by
    intro i h hi; subst hi; rfl
  rw [Ideal.matmul_constant_zero_apply, ← Equiv.sum_comp (contrEquiv1 d k hr1 hs).symm]
  refine Finset.sum_congr rfl fun c _ => ?_
  have c2 := contrEquiv1_symm_val d k hr1 hs c
  have l2 : d.lhsIdx (ix2 a b) ((contrEquiv1 d k hr1 hs).symm c) = ix2 a c := by
    funext ax; apply Fin.ext
    match ax with
    | ⟨0, _⟩ => simp [DotDims.lhsIdx, hlc, hln, hlb]; exact key0 _ _ (by simp [hlb, hln])
    | ⟨1, _⟩ => exact (d.lhsIdx_val_of_single hlc _ _).trans c2
  have r2 : d.rhsIdx (ix2 a b) ((contrEquiv1 d k hr1 hs).symm c) = ix2 c b := by
    funext ax; apply Fin.ext
    match ax with
    | ⟨0, _⟩ => exact (d.rhsIdx_val_of_single hrc _ _).trans c2
    | ⟨1, _⟩ => simp [DotDims.rhsIdx, hrc, hrn, hrb]; exact key1 _ _ (by simp [hlb, hln, hrn])
  rw [l2, r2]

end Cert.MatRead
-- ==== Proof.TwoClass.lean ====
/-
  The scalar mathematics of a two-class softmax, on the extended reals.

  For two real logits l₀, l₁ and any real shift μ, the softmax entry of class 1,
  exp (l₁ - μ) / (exp (l₀ - μ) + exp (l₁ - μ)), is the logistic function of the difference,
  1 / (1 + exp (-(l₁ - l₀))), and the entry of class 0 is one minus it. The shift cancels because it
  multiplies numerator and denominator by the same positive factor. Also here: a finite sum of reals
  read in the extended reals, and the logit difference of two affine forms as one affine form of the
  differences of the coefficients (distributivity, which is why every entry must be a real number).
-/
import Idealize.ShloMosaic.PureOps.Ideal.Laws

noncomputable section
open scoped BigOperators
open Idealize.ShloMosaic

namespace Cert.TwoClass

/-- The word of the float 1.0 denotes the number one. -/
theorem one_f32 : Ideal.ofBits .f32 0x3F800000#32 = 1 := by
  simp [Ideal.ofBits, Ideal.ieee, -EReal.coe_mul]; norm_num

/-- The word of the float -inf denotes the bottom element. -/
theorem neg_inf_f32 : Ideal.ofBits .f32 0xFF800000#32 = ⊥ := by
  simp [Ideal.ofBits, Ideal.ieee]

/-- A finite sum of reals, read in the extended reals, is the sum of the readings. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of finitely many real numbers, started from the bottom element, is a real number (over a nonempty
    index set): the shift a softmax subtracts is finite when the logits are. -/
theorem fold_max_real {ι : Type*} (s : Finset ι) (hs : s.Nonempty) (g : ι → EReal)
    (hg : ∀ i, ∃ r : ℝ, g i = (r : EReal)) : ∃ μ : ℝ, s.fold max ⊥ g = (μ : EReal) := by
  induction hs using Finset.Nonempty.cons_induction with
  | singleton a =>
    obtain ⟨r, hr⟩ := hg a
    exact ⟨r, by rw [Finset.fold_singleton, hr, max_bot_right]⟩
  | cons a s ha hs ih =>
    obtain ⟨r, hr⟩ := hg a
    obtain ⟨μ, hμ⟩ := ih
    exact ⟨max r μ, by rw [Finset.fold_cons, hr, hμ]; exact (EReal.coe_strictMono.monotone.map_max).symm⟩

/-- The logistic function as the kernel spells it: one over one plus the exponential of zero minus the argument. -/
def sigm (t : EReal) : EReal := Ideal.div 1 (1 + Ideal.exp (0 - t))

/-- At a real argument it is the real logistic function. -/
theorem sigm_coe (t : ℝ) : sigm (t : EReal) = (((1 + Real.exp (-t))⁻¹ : ℝ) : EReal) := by
  unfold sigm
  have h0 : (0 : EReal) - (t : EReal) = ((-t : ℝ) : EReal) := by
    rw [zero_sub, EReal.coe_neg]
  rw [h0, Ideal.exp_coe]
  have h1 : (1 : EReal) + ((Real.exp (-t) : ℝ) : EReal) = ((1 + Real.exp (-t) : ℝ) : EReal) := by
    rw [EReal.coe_add, EReal.coe_one]
  have hpos : (1 + Real.exp (-t) : ℝ) ≠ 0 := ne_of_gt (by positivity)
  rw [h1, Ideal.div_coe hpos, one_mul, one_div]

/-- One minus the logistic function at a real argument. -/
theorem one_sub_sigm_coe (t : ℝ) :
    (1 : EReal) - sigm (t : EReal) = ((1 - (1 + Real.exp (-t))⁻¹ : ℝ) : EReal) := by
  rw [sigm_coe, EReal.coe_sub, EReal.coe_one]

/-- The softmax entry of class `o` of two real logits, shifted by a real `μ`, with the sum started at zero
    as the reference's reduction does. -/
def soft (lo l0 l1 μ : EReal) : EReal :=
  Ideal.div (Ideal.exp (lo - μ)) (0 + (Ideal.exp (l0 - μ) + Ideal.exp (l1 - μ)))

theorem soft_coe (lo l0 l1 μ : ℝ) :
    soft (lo : EReal) l0 l1 μ
      = ((Real.exp (lo - μ) * (Real.exp (l0 - μ) + Real.exp (l1 - μ))⁻¹ : ℝ) : EReal) := by
  unfold soft
  rw [← EReal.coe_sub, ← EReal.coe_sub, ← EReal.coe_sub, Ideal.exp_coe, Ideal.exp_coe, Ideal.exp_coe, zero_add,
    ← EReal.coe_add]
  have hpos : (Real.exp (l0 - μ) + Real.exp (l1 - μ) : ℝ) ≠ 0 := ne_of_gt (by positivity)
  rw [Ideal.div_coe hpos, ← EReal.coe_mul, one_div]

/-- Class 1 of the shifted softmax is the logistic function of the logit difference. -/
theorem soft_one (l0 l1 μ : ℝ) : soft (l1 : EReal) l0 l1 μ = sigm ((l1 - l0 : ℝ) : EReal) := by
  rw [soft_coe, sigm_coe]
  congr 1
  have e : Real.exp (-(l1 - l0)) = Real.exp (l0 - μ) * (Real.exp (l1 - μ))⁻¹ := by
    rw [← Real.exp_neg, ← Real.exp_add]; congr 1; ring
  have h1 : Real.exp (l1 - μ) ≠ 0 := (Real.exp_pos _).ne'
  have h0 : Real.exp (l0 - μ) + Real.exp (l1 - μ) ≠ 0 := ne_of_gt (by positivity)
  rw [e]
  field_simp
  ring

/-- Class 0 is one minus it. -/
theorem soft_zero (l0 l1 μ : ℝ) : soft (l0 : EReal) l0 l1 μ = 1 - sigm ((l1 - l0 : ℝ) : EReal) := by
  rw [soft_coe, one_sub_sigm_coe]
  congr 1
  have e : Real.exp (-(l1 - l0)) = Real.exp (l0 - μ) * (Real.exp (l1 - μ))⁻¹ := by
    rw [← Real.exp_neg, ← Real.exp_add]; congr 1; ring
  have h1 : Real.exp (l1 - μ) ≠ 0 := (Real.exp_pos _).ne'
  have h0 : Real.exp (l0 - μ) + Real.exp (l1 - μ) ≠ 0 := ne_of_gt (by positivity)
  rw [e]
  field_simp
  ring

/-- An affine form with real coefficients at a real point, computed in the extended reals, is the real one. -/
theorem affine_coe {K : Nat} (x w : Fin K → ℝ) (b : ℝ) :
    (∑ d : Fin K, (x d : EReal) * (w d : EReal)) + (b : EReal) = ((∑ d : Fin K, x d * w d + b : ℝ) : EReal) := by
  rw [EReal.coe_add, coe_sum]
  congr 1

/-- The form of the coefficient differences is the difference of the two forms: distributivity over the reals. -/
theorem affine_diff_coe {K : Nat} (x w0 w1 : Fin K → ℝ) (b0 b1 : ℝ) :
    (∑ d : Fin K, ((w1 d : EReal) - (w0 d : EReal)) * (x d : EReal)) + ((b1 : EReal) - (b0 : EReal))
      = (((∑ d : Fin K, x d * w1 d + b1) - (∑ d : Fin K, x d * w0 d + b0) : ℝ) : EReal) := by
  have e : ((∑ d : Fin K, x d * w1 d + b1) - (∑ d : Fin K, x d * w0 d + b0) : ℝ)
      = ∑ d : Fin K, (w1 d - w0 d) * x d + (b1 - b0) := by
    rw [Finset.sum_congr rfl fun d _ => (show (w1 d - w0 d) * x d = x d * w1 d - x d * w0 d by ring),
      Finset.sum_sub_distrib]
    ring
  rw [e, EReal.coe_add, coe_sum, EReal.coe_sub]
  congr 1

end Cert.TwoClass
-- ==== Proof.KPay.lean ====
/-
  What the kernel body stores, read at one entry.

  The body flattens its block of eight batch rows to 16384 rows of 128 numbers, multiplies the single row of
  weight differences against every one of them (one sum over the 128 coordinates per row), folds the 16384 results back to
  eight rows of 2048, adds the row of bias differences, and applies the logistic function; the second output is one
  minus the first. Entry (r, n) of the result therefore depends on row (r, n) of the block only: flattening sends
  (r, n) to row r * 2048 + n and folding sends it back.
-/
import proofs.«135976_g39943195853502_cont_8to1_b_465_27_alg».proof.Proof.Gen.KernelIdeal.Skeleton
import proofs.«135976_g39943195853502_cont_8to1_b_465_27_alg».proof.Proof.LibMatRead
import proofs.«135976_g39943195853502_cont_8to1_b_465_27_alg».proof.Proof.TwoClass
import Idealize.ShloMosaic.Lib.Pipeline.Value
import Idealize.ShloMosaic.Lib.ValueIdx

noncomputable section
open scoped BigOperators

namespace Cert.KernelIdeal.Pay

open Cert.KernelIdeal Cert.KernelIdeal.Gen Idealize.ShloMosaic Idealize.ShloMosaic.ValueIdx Cert.TwoClass

/-- The row of the flattened block that holds batch row `r`, position `n`. -/
def flat (r : Fin 8) (n : Fin 2048) : Fin 16384 :=
  ⟨r.val * 2048 + n.val, by have := r.isLt; have := n.isLt; omega⟩

/-- Flattening the block keeps each row of 128 numbers: row `r * 2048 + n` is row (r, n). -/
theorem flatten_apply (x0 : FVec Ideal S8x2048x128 .f32) (r : Fin 8) (n : Fin 2048) (d : Fin 128) :
    shapeCast S16384x128 x0 shapeCasts_S8x2048x128_S16384x128 (ix2 (flat r n) d) = x0 (ix3 r n d) := by
  refine shapeCast_apply x0 _ _ _ ?_
  rw [Shape.rowMajor_val_three, Shape.rowMajor_val_two]
  rfl

/-- Folding the one long row back to eight rows: entry (r, n) is entry `r * 2048 + n` of the long row. -/
theorem unflatten_apply (u : FVec Ideal S1x16384 .f32) (r : Fin 8) (n : Fin 2048) :
    shapeCast S8x2048 u shapeCasts_S1x16384_S8x2048 (ix2 r n) = u (ix2 (0 : Fin 1) (flat r n)) := by
  refine shapeCast_apply u _ _ _ ?_
  rw [Shape.rowMajor_val_two, Shape.rowMajor_val_two]
  show 0 * 16384 + (r.val * 2048 + n.val) = r.val * 2048 + n.val
  omega

/-- The row of bias differences is repeated on each of the eight rows. -/
theorem bias_apply (x2 : FVec Ideal S1x2048 .f32) (r : Fin 8) (n : Fin 2048) :
    broadcastTo S8x2048 (shapeCast S1x2048 x2 shapeCasts_S1x2048_S1x2048) broadcasts_S1x2048_S8x2048 (ix2 r n)
      = x2 (ix2 (0 : Fin 1) n) := by
  rw [shapeCast_self]
  refine broadcastTo_apply x2 _ _ _ fun a => ?_
  match a with
  | ⟨0, _⟩ => show 0 = if (1 : Nat) = 1 then 0 else _; rw [if_pos rfl]
  | ⟨1, _⟩ => show n.val = if (2048 : Nat) = 1 then 0 else n.val; rw [if_neg (by decide)]

/-- The logit difference the body forms at (r, n): the weight-difference row against row (r, n) of the block, plus the
    bias difference at position `n`. -/
def logit (x0 : FVec Ideal S8x2048x128 .f32) (x1 : FVec Ideal S1x128 .f32) (x2 : FVec Ideal S1x2048 .f32)
    (r : Fin 8) (n : Fin 2048) : EReal :=
  (∑ d : Fin 128, x1 (ix2 (0 : Fin 1) d) * x0 (ix3 r n d)) + x2 (ix2 (0 : Fin 1) n)

/-- The matrix product and the bias, at (r, n). -/
theorem logit_apply (x0 : FVec Ideal S8x2048x128 .f32) (x1 : FVec Ideal S1x128 .f32) (x2 : FVec Ideal S1x2048 .f32)
    (r : Fin 8) (n : Fin 2048) :
    addf (shapeCast S8x2048 (matmul dot_S1x128_S16384x128_S1x16384_1_1_0_0_n_n none
            (shapeCast S1x128 x1 shapeCasts_S1x128_S1x128)
            (shapeCast S16384x128 x0 shapeCasts_S8x2048x128_S16384x128)
            (constant S1x16384 .f32 0x00000000#32)) shapeCasts_S1x16384_S8x2048)
         (broadcastTo S8x2048 (shapeCast S1x2048 x2 shapeCasts_S1x2048_S1x2048) broadcasts_S1x2048_S8x2048) (ix2 r n)
      = logit x0 x1 x2 r n := by
  rw [addf_apply, bias_apply, unflatten_apply, shapeCast_self]
  unfold logit
  congr 1
  refine (Cert.MatRead.matmul_rows_apply dot_S1x128_S16384x128_S1x16384_1_1_0_0_n_n rfl rfl rfl rfl rfl rfl none x1
    (shapeCast S16384x128 x0 shapeCasts_S8x2048x128_S16384x128) (0 : Fin 1) (flat r n)).trans ?_
  exact Finset.sum_congr rfl fun d _ => by rw [flatten_apply]

/-- The first stored value at (r, n): the logistic function of the logit difference. -/
theorem pay1_apply (x0 : FVec Ideal S8x2048x128 .f32) (x1 : FVec Ideal S1x128 .f32) (x2 : FVec Ideal S1x2048 .f32)
    (r : Fin 8) (n : Fin 2048) :
    k0_pay1 (F := Ideal) x0 x1 x2 (ix2 r n) = sigm (logit x0 x1 x2 r n) := by
  unfold k0_pay1
  show Ideal.div (Ideal.ofBits .f32 0x3F800000#32) (Ideal.ofBits .f32 0x3F800000#32
      + Ideal.exp (Ideal.ofBits .f32 0x00000000#32 - _)) = _
  rw [one_f32, Ideal.ofBits_zero_f32]
  unfold sigm
  exact congrArg (fun z => Ideal.div 1 (1 + Ideal.exp (0 - z))) (logit_apply x0 x1 x2 r n)

/-- The second stored value at (r, n): one minus the first. -/
theorem pay2_apply (x0 : FVec Ideal S8x2048x128 .f32) (x1 : FVec Ideal S1x128 .f32) (x2 : FVec Ideal S1x2048 .f32)
    (r : Fin 8) (n : Fin 2048) :
    k0_pay2 (F := Ideal) x0 x1 x2 (ix2 r n) = 1 - sigm (logit x0 x1 x2 r n) := by
  unfold k0_pay2
  show Ideal.ofBits .f32 0x3F800000#32 - k0_pay1 (F := Ideal) x0 x1 x2 (ix2 r n) = _
  rw [one_f32, pay1_apply]

end Cert.KernelIdeal.Pay
-- ==== Proof.KHost.lean ====
/-
  The two small arrays the host prepares before the kernel call, read at an entry.

  The weight-difference row is row 1 of the weight matrix minus row 0, laid out as one row of 128 numbers; the
  bias-difference row repeats entry 1 of the bias minus entry 0 at each of the 2048 positions. Both are read off the
  host operations that run before the call: two slices, a subtraction and changes of layout.
-/
import proofs.«135976_g39943195853502_cont_8to1_b_465_27_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.HostPre

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The weight-difference row as the host operations compute it from the weight matrix. -/
def wrow (W : FVec Ideal S2x128 .f32) : FVec Ideal S1x128 .f32 :=
  shapeCast S1x128
    (subf (shapeCast S128 (extractStridedSlice S1x128 ![1, 0] W slices_S2x128_S1x128_1_0) shapeCasts_S1x128_S128)
      (shapeCast S128 (extractStridedSlice S1x128 ![0, 0] W slices_S2x128_S1x128_0_0) shapeCasts_S1x128_S128))
    shapeCasts_S128_S1x128

/-- The bias-difference row as the host operations compute it from the bias. -/
def crow (b : FVec Ideal S2 .f32) : FVec Ideal S1x2048 .f32 :=
  broadcastInDim S1x2048 ![] bcast_S_S1x2048
    (subf (shapeCast S_ (extractStridedSlice S1 ![1] b slices_S2_S1_1) shapeCasts_S1_S_)
      (shapeCast S_ (extractStridedSlice S1 ![0] b slices_S2_S1_0) shapeCasts_S1_S_))

/-- The kernel's second operand, as the region finds it, is the weight-difference row of the weight argument. -/
theorem V_v10 (c : Dev nD) :
    (V m c main_v10 : S1x128.Idx → EReal) = wrow (m ((c : Thread nD τ).loc main_arg1)) := by
  show StableHlo.after hostOps0 (fun b => m (c, b)) (Proc.devRef .tc main_v10) = _
  after_results
  rfl

/-- The kernel's third operand, as the region finds it, is the bias-difference row of the bias argument. -/
theorem V_v11 (c : Dev nD) :
    (V m c main_v11 : S1x2048.Idx → EReal) = crow (m ((c : Thread nD τ).loc main_arg2)) := by
  show StableHlo.after hostOps0 (fun b => m (c, b)) (Proc.devRef .tc main_v11) = _
  after_results
  rfl

/-- Entry `d` of the weight-difference row. -/
theorem wrow_apply (W : FVec Ideal S2x128 .f32) (d : Fin 128) :
    wrow W (ix2 (0 : Fin 1) d) = W (ix2 (1 : Fin 2) d) - W (ix2 (0 : Fin 2) d) := by
  unfold wrow
  refine (shapeCast_apply _ shapeCasts_S128_S1x128 (ix2 (0 : Fin 1) d) (ix1 d) ?_).trans ?_
  · rw [Shape.rowMajor_val_one, Shape.rowMajor_val_two]
    show d.val = 0 * 128 + d.val
    omega
  rw [subf_apply]
  congr 1
  · refine (shapeCast_apply _ shapeCasts_S1x128_S128 (ix1 d) (ix2 (0 : Fin 1) d) ?_).trans ?_
    · rw [Shape.rowMajor_val_one, Shape.rowMajor_val_two]
      show 0 * 128 + d.val = d.val
      omega
    refine extractStridedSlice_apply _ W slices_S2x128_S1x128_1_0 _ (ix2 (1 : Fin 2) d) fun a => ?_
    match a with
    | ⟨0, _⟩ => rfl
    | ⟨1, _⟩ => show d.val = 0 + d.val; omega
  · refine (shapeCast_apply _ shapeCasts_S1x128_S128 (ix1 d) (ix2 (0 : Fin 1) d) ?_).trans ?_
    · rw [Shape.rowMajor_val_one, Shape.rowMajor_val_two]
      show 0 * 128 + d.val = d.val
      omega
    refine extractStridedSlice_apply _ W slices_S2x128_S1x128_0_0 _ (ix2 (0 : Fin 2) d) fun a => ?_
    match a with
    | ⟨0, _⟩ => rfl
    | ⟨1, _⟩ => show d.val = 0 + d.val; omega

/-- A rank-one shape of one entry cast to rank zero keeps the entry. -/
theorem scalar_cast_apply (v : FVec Ideal S1 .f32) :
    shapeCast S_ v shapeCasts_S1_S_ ix0 = v (ix1 (0 : Fin 1)) := by
  refine shapeCast_apply v shapeCasts_S1_S_ ix0 (ix1 (0 : Fin 1)) ?_
  rw [Shape.rowMajor_val_one]
  have h := (S_.rowMajor ix0).isLt
  have e : S_.numel = 1 := rfl
  show 0 = _
  omega

/-- Entry `n` of the bias-difference row. -/
theorem crow_apply (b : FVec Ideal S2 .f32) (n : Fin 2048) :
    crow b (ix2 (0 : Fin 1) n) = b (ix1 (1 : Fin 2)) - b (ix1 (0 : Fin 2)) := by
  unfold crow
  refine (broadcastInDim_apply _ bcast_S_S1x2048 _ (ix2 (0 : Fin 1) n) ix0 fun a => a.elim0).trans ?_
  rw [subf_apply, scalar_cast_apply, scalar_cast_apply]
  congr 1
  · exact extractStridedSlice_apply _ b slices_S2_S1_1 _ (ix1 (1 : Fin 2)) fun a => by
      match a with
      | ⟨0, _⟩ => rfl
  · exact extractStridedSlice_apply _ b slices_S2_S1_0 _ (ix1 (0 : Fin 2)) fun a => by
      match a with
      | ⟨0, _⟩ => rfl

end Cert.KernelIdeal.HostPre
-- ==== Proof.Spec.lean ====
/-
  The result as one function of the three arguments, index by index.

  For batch row `p` and position `n` the logit difference is the sum over the 128 coordinates of the difference
  of the two weight rows times the input row, plus the difference of the two biases. The probability of class 1
  is the logistic function of it, the probability of class 0 is one minus that, and the output stacks the two
  along a last axis of size two.
-/
import proofs.«135976_g39943195853502_cont_8to1_b_465_27_alg».proof.Proof.TwoClass
import Idealize.ShloMosaic.Lib.ValueIdx

noncomputable section
open scoped BigOperators

namespace Cert.Spec

open Idealize.ShloMosaic Idealize.ShloMosaic.ValueIdx Cert.TwoClass

/-- The shapes of the input, the weights, the bias, one probability plane and the output. -/
abbrev SX : Shape := ⟨3, ![128, 2048, 128]⟩
abbrev SW : Shape := ⟨2, ![2, 128]⟩
abbrev SB : Shape := ⟨1, ![2]⟩
abbrev SP : Shape := ⟨2, ![128, 2048]⟩
abbrev SO : Shape := ⟨3, ![128, 2048, 2]⟩

/-- The logit difference (class 1 minus class 0) at batch row `p`, position `n`. -/
def dlogit (xs : FVec Ideal SX .f32) (W : FVec Ideal SW .f32) (b : FVec Ideal SB .f32) (p : Fin 128) (n : Fin 2048) : EReal :=
  (∑ d : Fin 128, (W (ix2 (1 : Fin 2) d) - W (ix2 (0 : Fin 2) d)) * xs (ix3 p n d))
    + (b (ix1 (1 : Fin 2)) - b (ix1 (0 : Fin 2)))

/-- The plane of class-1 probabilities. -/
def p1 (xs : FVec Ideal SX .f32) (W : FVec Ideal SW .f32) (b : FVec Ideal SB .f32) : FVec Ideal SP .f32 :=
  fun j => sigm (dlogit xs W b (j 0) (j 1))

/-- The plane of class-0 probabilities. -/
def p0 (xs : FVec Ideal SX .f32) (W : FVec Ideal SW .f32) (b : FVec Ideal SB .f32) : FVec Ideal SP .f32 :=
  fun j => 1 - sigm (dlogit xs W b (j 0) (j 1))

/-- The output: class 0 at last coordinate 0, class 1 at last coordinate 1. -/
def out (xs : FVec Ideal SX .f32) (W : FVec Ideal SW .f32) (b : FVec Ideal SB .f32) : FVec Ideal SO .f32 :=
  fun i => if (i 2).val = 0 then 1 - sigm (dlogit xs W b (i 0) (i 1)) else sigm (dlogit xs W b (i 0) (i 1))

end Cert.Spec
-- ==== Proof.KValue.lean ====
/-
  What the two arrays the kernel call writes hold after the run.

  The grid has sixteen points; point `t` reads rows 8t … 8t+7 of the input, the whole weight-difference row and the
  whole bias-difference row, and writes rows 8t … 8t+7 of each output plane. So what a point writes back is its block
  of one whole-array function of the arguments (the class-0 plane for the first output, the class-1 plane for the
  second), and since the sixteen blocks of eight rows tile the 128 rows, each plane ends holding that function.
-/
import proofs.«135976_g39943195853502_cont_8to1_b_465_27_alg».proof.Proof.Gen.KernelIdeal.Frame
import proofs.«135976_g39943195853502_cont_8to1_b_465_27_alg».proof.Proof.KPay
import proofs.«135976_g39943195853502_cont_8to1_b_465_27_alg».proof.Proof.KHost
import proofs.«135976_g39943195853502_cont_8to1_b_465_27_alg».proof.Proof.Spec
import Idealize.ShloMosaic.Lib.Pipeline.Value
import Idealize.ShloMosaic.Lib.StableHlo.Run

set_option maxRecDepth 16384

noncomputable section
open scoped BigOperators

namespace Cert.KernelIdeal.KValue

open Cert.KernelIdeal Cert.KernelIdeal.Gen Idealize.ShloMosaic Idealize.ShloMosaic.TcCoe Idealize.SL.Sem
open Idealize.ShloMosaic.ValueIdx Cert.TwoClass
open Idealize.ShloMosaic.Pipeline (Dat)
open Idealize.ShloMosaic.StableHlo

variable (m : (ℓ : Loc nD τ sig) → Buf (Elt Ideal) ℓ)

/-- The three arguments as launched, on core `c`. -/
abbrev aX (c : Dev nD) : FVec Ideal S128x2048x128 .f32 := m ((c : Thread nD τ).loc main_arg0)
abbrev aW (c : Dev nD) : FVec Ideal S2x128 .f32 := m ((c : Thread nD τ).loc main_arg1)
abbrev aB (c : Dev nD) : FVec Ideal S2 .f32 := m ((c : Thread nD τ).loc main_arg2)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the sixteen points: the input block and both output blocks sit at block row
    `t`, every other block coordinate is zero. -/
theorem idx_facts : ∀ t : Fin cfg0.N,
    win0_0.index t (0 : Fin 3) = win0_4.index t (0 : Fin 2) ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = win0_4.index t (0 : Fin 2) ∧ win0_3.index t (1 : Fin 2) = 0
    ∧ win0_4.index t (1 : Fin 2) = 0 ∧ win0_4.index t (0 : Fin 2) ≤ 15 :=
  (by decide +kernel : ∀ t : Fin grid0.N, _)

/-- Every block row is some point's. -/
theorem idx_onto : ∀ q : Fin 16, ∃ t : Fin cfg0.N, win0_4.index t (0 : Fin 2) = q.val :=
  (by decide +kernel : ∀ q : Fin 16, ∃ t : Fin grid0.N, win0_4.index t (0 : Fin 2) = q.val)

/-- The input block at point `t`: row `r` of the block is row `8t + r` of the input argument. -/
theorem blk0_at (c : Dev nD) (t : Fin cfg0.N) (r : Fin 8) (n : Fin 2048) (d : Fin 128) (p : Fin 128)
    (hp : p.val = win0_4.index t (0 : Fin 2) * 8 + r.val) :
    iblk m c 0 t (ix3 r n d) = aX m c (ix3 p n d) := by
  obtain ⟨e0, e1, e2, -⟩ := idx_facts t
  show V m c main_arg0 (((cfg0.win 0).blk t).view.emb (ix3 r n d)) = _
  rw [V_main_arg0]
  refine congrArg _ (funext fun a => Fin.ext ?_)
  match a with
  | ⟨0, _⟩ => show win0_0.index t (0 : Fin 3) * 8 + 1 * r.val = p.val; omega
  | ⟨1, _⟩ => show win0_0.index t (1 : Fin 3) * 2048 + 1 * n.val = n.val; omega
  | ⟨2, _⟩ => show win0_0.index t (2 : Fin 3) * 128 + 1 * d.val = d.val; omega

/-- The second block at every point is the weight-difference row. -/
theorem blk1_at (c : Dev nD) (t : Fin cfg0.N) (d : Fin 128) :
    iblk m c 1 t (ix2 (0 : Fin 1) d)
      = aW m c (ix2 (1 : Fin 2) d) - aW m c (ix2 (0 : Fin 2) d) := by
  obtain ⟨-, -, -, e3, e4, -⟩ := idx_facts t
  show V m c main_v10 (((cfg0.win 1).blk t).view.emb (ix2 (0 : Fin 1) d)) = _
  rw [HostPre.V_v10]
  refine (congrArg _ (?_ : _ = ix2 (0 : Fin 1) d)).trans (HostPre.wrow_apply _ d)
  funext a; apply Fin.ext
  match a with
  | ⟨0, _⟩ => show win0_1.index t (0 : Fin 2) * 1 + 1 * 0 = 0; omega
  | ⟨1, _⟩ => show win0_1.index t (1 : Fin 2) * 128 + 1 * d.val = d.val; omega

/-- The third block at every point is the bias-difference row. -/
theorem blk2_at (c : Dev nD) (t : Fin cfg0.N) (n : Fin 2048) :
    iblk m c 2 t (ix2 (0 : Fin 1) n)
      = aB m c (ix1 (1 : Fin 2)) - aB m c (ix1 (0 : Fin 2)) := by
  obtain ⟨-, -, -, -, -, e5, e6, -⟩ := idx_facts t
  show V m c main_v11 (((cfg0.win 2).blk t).view.emb (ix2 (0 : Fin 1) n)) = _
  rw [HostPre.V_v11]
  refine (congrArg _ (?_ : _ = ix2 (0 : Fin 1) n)).trans (HostPre.crow_apply _ n)
  funext a; apply Fin.ext
  match a with
  | ⟨0, _⟩ => show win0_2.index t (0 : Fin 2) * 1 + 1 * 0 = 0; omega
  | ⟨1, _⟩ => show win0_2.index t (1 : Fin 2) * 2048 + 1 * n.val = n.val; omega

/-- The logit difference the body forms at a block entry is the specified one at the array entry above it, given what
    the three blocks hold there. -/
theorem logit_eq (x0 : FVec Ideal S8x2048x128 .f32) (x1 : FVec Ideal S1x128 .f32) (x2 : FVec Ideal S1x2048 .f32)
    (xs : FVec Ideal S128x2048x128 .f32) (W : FVec Ideal S2x128 .f32) (b : FVec Ideal S2 .f32)
    (r : Fin 8) (n : Fin 2048) (p : Fin 128)
    (h0 : ∀ d : Fin 128, x0 (ix3 r n d) = xs (ix3 p n d))
    (h1 : ∀ d : Fin 128, x1 (ix2 (0 : Fin 1) d) = W (ix2 (1 : Fin 2) d) - W (ix2 (0 : Fin 2) d))
    (h2 : x2 (ix2 (0 : Fin 1) n) = b (ix1 (1 : Fin 2)) - b (ix1 (0 : Fin 2))) :
    Pay.logit x0 x1 x2 r n = Cert.Spec.dlogit xs W b p n := by
  unfold Pay.logit Cert.Spec.dlogit
  rw [h2]
  exact congrArg (· + _) (Finset.sum_congr rfl fun d _ => by rw [h0, h1])

/-- The logit difference of point `t`'s blocks at block entry (r, n) is the specified one at row `8t + r`. -/
theorem logit_at (c : Dev nD) (t : Fin cfg0.N) (r : Fin 8) (n : Fin 2048) (p : Fin 128)
    (hp : p.val = win0_4.index t (0 : Fin 2) * 8 + r.val) :
    Pay.logit (iblk m c 0 t) (iblk m c 1 t) (iblk m c 2 t) r n
      = Cert.Spec.dlogit (aX m c) (aW m c) (aB m c) p n :=
  logit_eq (iblk m c 0 t) (iblk m c 1 t) (iblk m c 2 t) _ _ _ r n p
    (fun d => blk0_at m c t r n d p hp) (fun d => blk1_at m c t d) (blk2_at m c t n)

/-- WHAT POINT `t` WRITES BACK to the second output is its block of the class-1 plane. -/
theorem flushed4_eq (c : Dev nD) (t : Fin cfg0.N) :
    (dats m 0 c).flushed 4 t
      = ((cfg0.win 4).blk t).view.read (Elt Ideal) (Cert.Spec.p1 (aX m c) (aW m c) (aB m c)) := by
  show (cfg0.win 4).cut (grid0.coords t) ((dats m 0 c).after 4 t) = _
  rw [after0_4]
  unfold out0_4
  rw [View.canon_unit_zero hz2]
  simp only [View.ld_unit_zero (S := S8x2048x128) hz3, View.ld_unit_zero (S := S1x128) hz2,
    View.ld_unit_zero (S := S1x2048) hz2]
  obtain ⟨-, -, -, -, -, -, -, -, -, e9, e10⟩ := idx_facts t
  funext j
  have hj0 : (j 0).val < 8 := (j 0).isLt
  have hj1 : (j 1).val < 2048 := (j 1).isLt
  show k0_pay1 (F := Ideal) (iblk m c 0 t) (iblk m c 1 t) (iblk m c 2 t) (ix2 (⟨(j 0).val, hj0⟩ : Fin 8) (⟨(j 1).val, hj1⟩ : Fin 2048))
    = sigm (Cert.Spec.dlogit (aX m c) (aW m c) (aB m c)
        (⟨win0_4.index t (0 : Fin 2) * 8 + 1 * (j 0).val, by omega⟩ : Fin 128)
        (⟨win0_4.index t (1 : Fin 2) * 2048 + 1 * (j 1).val, by omega⟩ : Fin 2048))
  rw [Pay.pay1_apply]
  refine congrArg sigm ?_
  have hn : (⟨win0_4.index t (1 : Fin 2) * 2048 + 1 * (j 1).val, by omega⟩ : Fin 2048) = ⟨(j 1).val, hj1⟩ :=
    Fin.ext (by show win0_4.index t (1 : Fin 2) * 2048 + 1 * (j 1).val = (j 1).val; omega)
  rw [hn]
  exact logit_at m c t _ _ _ (by
    show win0_4.index t (0 : Fin 2) * 8 + 1 * (j 0).val = win0_4.index t (0 : Fin 2) * 8 + (j 0).val; omega)

/-- WHAT POINT `t` WRITES BACK to the first output is its block of the class-0 plane. -/
theorem flushed3_eq (c : Dev nD) (t : Fin cfg0.N) :
    (dats m 0 c).flushed 3 t
      = ((cfg0.win 3).blk t).view.read (Elt Ideal) (Cert.Spec.p0 (aX m c) (aW m c) (aB m c)) := by
  show (cfg0.win 3).cut (grid0.coords t) ((dats m 0 c).after 3 t) = _
  rw [after0_3]
  unfold out0_3
  rw [View.canon_unit_zero hz2]
  simp only [View.ld_unit_zero (S := S8x2048x128) hz3, View.ld_unit_zero (S := S1x128) hz2,
    View.ld_unit_zero (S := S1x2048) hz2]
  obtain ⟨-, -, -, -, -, -, -, e7, e8, e9, e10⟩ := idx_facts t
  funext j
  have hj0 : (j 0).val < 8 := (j 0).isLt
  have hj1 : (j 1).val < 2048 := (j 1).isLt
  show k0_pay2 (F := Ideal) (iblk m c 0 t) (iblk m c 1 t) (iblk m c 2 t) (ix2 (⟨(j 0).val, hj0⟩ : Fin 8) (⟨(j 1).val, hj1⟩ : Fin 2048))
    = 1 - sigm (Cert.Spec.dlogit (aX m c) (aW m c) (aB m c)
        (⟨win0_3.index t (0 : Fin 2) * 8 + 1 * (j 0).val, by omega⟩ : Fin 128)
        (⟨win0_3.index t (1 : Fin 2) * 2048 + 1 * (j 1).val, by omega⟩ : Fin 2048))
  rw [Pay.pay2_apply]
  refine congrArg (fun z => 1 - sigm z) ?_
  have hn : (⟨win0_3.index t (1 : Fin 2) * 2048 + 1 * (j 1).val, by omega⟩ : Fin 2048) = ⟨(j 1).val, hj1⟩ :=
    Fin.ext (by show win0_3.index t (1 : Fin 2) * 2048 + 1 * (j 1).val = (j 1).val; omega)
  rw [hn]
  exact logit_at m c t _ _ _ (by
    show win0_3.index t (0 : Fin 2) * 8 + 1 * (j 0).val = win0_4.index t (0 : Fin 2) * 8 + (j 0).val; omega)

/-- An index of the second output plane is in point `t`'s block iff each coordinate is in the block's range. -/
theorem mem_blk4 (t : Fin cfg0.N) (i : S128x2048.Idx) :
    i ∈ ((cfg0.win 4).blk t).view.set ↔ ∀ a : Fin 2, win0_4.index t a * S8x2048.size a ≤ (i a).val
      ∧ (i a).val < win0_4.index t a * S8x2048.size a + S8x2048.size a := by
  show i ∈ ((View.whole main_v12_1).slice (win0_4.rect t)).set ↔ _
  rw [View.set_slice_whole, Rect.mem_set_unit]
  exact Iff.rfl

/-- The same for the first output plane. -/
theorem mem_blk3 (t : Fin cfg0.N) (i : S128x2048.Idx) :
    i ∈ ((cfg0.win 3).blk t).view.set ↔ ∀ a : Fin 2, win0_3.index t a * S8x2048.size a ≤ (i a).val
      ∧ (i a).val < win0_3.index t a * S8x2048.size a + S8x2048.size a := by
  show i ∈ ((View.whole main_v12_0).slice (win0_3.rect t)).set ↔ _
  rw [View.set_slice_whole, Rect.mem_set_unit]
  exact Iff.rfl

/-- Every entry of the second output plane is in some point's block: row `p` is in the block of point `p / 8`. -/
theorem cover4 (i : S128x2048.Idx) :
    ∃ t : Fin cfg0.N, (cfg0.win 4).flush t = true ∧ i ∈ ((cfg0.win 4).blk t).view.set := by
  have hi0 : (i 0).val < 128 := (i 0).isLt
  have hi1 : (i 1).val < 2048 := (i 1).isLt
  obtain ⟨t, ht⟩ := idx_onto ⟨(i 0).val / 8, by omega⟩
  have ht' : win0_4.index t (0 : Fin 2) = (i 0).val / 8 := ht
  obtain ⟨-, -, -, -, -, -, -, -, -, e9, -⟩ := idx_facts t
  refine ⟨t, flush0_4 t, ?_⟩
  rw [mem_blk4]
  intro a
  match a with
  | ⟨0, _⟩ =>
    show win0_4.index t (0 : Fin 2) * 8 ≤ (i 0).val ∧ (i 0).val < win0_4.index t (0 : Fin 2) * 8 + 8
    omega
  | ⟨1, _⟩ =>
    show win0_4.index t (1 : Fin 2) * 2048 ≤ (i 1).val ∧ (i 1).val < win0_4.index t (1 : Fin 2) * 2048 + 2048
    omega

/-- The same for the first output plane. -/
theorem cover3 (i : S128x2048.Idx) :
    ∃ t : Fin cfg0.N, (cfg0.win 3).flush t = true ∧ i ∈ ((cfg0.win 3).blk t).view.set := by
  have hi0 : (i 0).val < 128 := (i 0).isLt
  have hi1 : (i 1).val < 2048 := (i 1).isLt
  obtain ⟨t, ht⟩ := idx_onto ⟨(i 0).val / 8, by omega⟩
  have ht' : win0_4.index t (0 : Fin 2) = (i 0).val / 8 := ht
  obtain ⟨-, -, -, -, -, -, -, e7, e8, -⟩ := idx_facts t
  refine ⟨t, flush0_3 t, ?_⟩
  rw [mem_blk3]
  intro a
  match a with
  | ⟨0, _⟩ =>
    show win0_3.index t (0 : Fin 2) * 8 ≤ (i 0).val ∧ (i 0).val < win0_3.index t (0 : Fin 2) * 8 + 8
    omega
  | ⟨1, _⟩ =>
    show win0_3.index t (1 : Fin 2) * 2048 ≤ (i 1).val ∧ (i 1).val < win0_3.index t (1 : Fin 2) * 2048 + 2048
    omega

/-- The second output plane after the run is the class-1 plane of the arguments. -/
theorem final4 (c : Dev nD) : (dats m 0 c).arrAt 4 cfg0.N = Cert.Spec.p1 (aX m c) (aW m c) (aB m c) :=
  (dats m 0 c).arrAt_eq_of_cover 4 _ (fun t _ => flushed4_eq m c t) cover4

/-- The first output plane after the run is the class-0 plane of the arguments. -/
theorem final3 (c : Dev nD) : (dats m 0 c).arrAt 3 cfg0.N = Cert.Spec.p0 (aX m c) (aW m c) (aB m c) :=
  (dats m 0 c).arrAt_eq_of_cover 3 _ (fun t _ => flushed3_eq m c t) cover3

/-- Two planes, each given a last axis of size one and joined along it, read at an entry: the first plane at last
    coordinate 0, the second at last coordinate 1. -/
theorem stack_apply (A B : FVec Ideal S128x2048 .f32) (i : S128x2048x2.Idx) :
    concatenate S128x2048x2 (2 : Fin S128x2048x2.rank)
        [⟨S128x2048x1, broadcastInDim S128x2048x1 ![0, 1] bcast_S128x2048_S128x2048x1_0_1 A⟩,
          ⟨S128x2048x1, broadcastInDim S128x2048x1 ![0, 1] bcast_S128x2048_S128x2048x1_0_1 B⟩]
        concatenates_S128x2048x1_S128x2048x1_S128x2048x2_d2 i
      = if (i 2).val = 0 then A (ix2 (i 0) (i 1)) else B (ix2 (i 0) (i 1)) := by
  have hi2 : (i 2).val < 2 := (i 2).isLt
  have hb : ∀ (C : FVec Ideal S128x2048 .f32),
      broadcastInDim S128x2048x1 ![0, 1] bcast_S128x2048_S128x2048x1_0_1 C (ix3 (i 0) (i 1) (0 : Fin 1))
        = C (ix2 (i 0) (i 1)) := fun C =>
    broadcastInDim_apply _ bcast_S128x2048_S128x2048x1_0_1 C _ (ix2 (i 0) (i 1)) fun a' => by
      match a' with
      | ⟨0, _⟩ => show (i 0).val = if (128 : Nat) = 1 then 0 else (i 0).val; rw [if_neg (by decide)]
      | ⟨1, _⟩ => show (i 1).val = if (2048 : Nat) = 1 then 0 else (i 1).val; rw [if_neg (by decide)]
  by_cases h : (i 2).val = 0
  · rw [if_pos h]
    refine (concatenate_pair_apply_left (2 : Fin S128x2048x2.rank) _ _
      concatenates_S128x2048x1_S128x2048x1_S128x2048x2_d2 i rfl (ix3 (i 0) (i 1) (0 : Fin 1)) fun b => ?_).trans (hb A)
    match b with
    | ⟨0, _⟩ => rfl
    | ⟨1, _⟩ => rfl
    | ⟨2, _⟩ => show 0 = (i 2).val; omega
  · rw [if_neg h]
    refine (concatenate_pair_apply_right (2 : Fin S128x2048x2.rank) _ _
      concatenates_S128x2048x1_S128x2048x1_S128x2048x2_d2 i rfl rfl (ix3 (i 0) (i 1) (0 : Fin 1)) (fun b hb' => ?_) ?_).trans (hb B)
    · match b with
      | ⟨0, _⟩ => rfl
      | ⟨1, _⟩ => rfl
      | ⟨2, _⟩ => exact absurd rfl hb'
    · show 0 + 1 = (i 2).val
      omega

/-- The class-0 and class-1 planes stacked are the specified output. -/
theorem stack_eq (A B : FVec Ideal S128x2048 .f32)
    (xs : FVec Ideal S128x2048x128 .f32) (W : FVec Ideal S2x128 .f32) (b : FVec Ideal S2 .f32)
    (hA : A = Cert.Spec.p0 xs W b) (hB : B = Cert.Spec.p1 xs W b) :
    concatenate S128x2048x2 (2 : Fin S128x2048x2.rank)
        [⟨S128x2048x1, broadcastInDim S128x2048x1 ![0, 1] bcast_S128x2048_S128x2048x1_0_1 A⟩,
          ⟨S128x2048x1, broadcastInDim S128x2048x1 ![0, 1] bcast_S128x2048_S128x2048x1_0_1 B⟩]
        concatenates_S128x2048x1_S128x2048x1_S128x2048x2_d2
      = Cert.Spec.out xs W b := by
  subst hA hB
  funext i
  rw [stack_apply]
  rfl

/-- The program's result after the host operations that follow the call: the two planes stacked. -/
theorem tail_eq (c : Dev nD) :
    (Pipeline.afterTail₀ cfgs (dats m) 0 (V0 m) [hostOps1] c main_v15 : S128x2048x2.Idx → EReal)
      = Cert.Spec.out (aX m c) (aW m c) (aB m c) := by
  unfold Pipeline.afterTail₀
  show StableHlo.after hostOps1 _ (Proc.devRef .tc main_v15) = _
  after_results
  exact stack_eq _ _ _ _ _
    ((Pipeline.withArrays_arr spec0 launch0.win.arr_inj c (V0 m c) (fun w => (dats m 0 c).arrAt w cfg0.N) 3).trans (final3 m c))
    ((Pipeline.withArrays_arr spec0 launch0.win.arr_inj c (V0 m c) (fun w => (dats m 0 c).arrAt w cfg0.N) 4).trans (final4 m c))

/-- THE KERNEL PROGRAM'S RUN at the exact instance: every weakly fair execution terminates without a fault, with the
    result at the specified function of the arguments and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v15) = Cert.Spec.out (aX m c) (aW m c) (aB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v15 (Pipeline.mem_restRefs_of main_v15 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue
-- ==== Proof.RefValue.lean ====
/-
  The reference computes the specified function, when every entry of the arguments is a real number.

  The reference forms both logits, subtracts their maximum, exponentiates, and divides by the sum of the two
  exponentials. With real entries both logits are real, so their maximum is a real shift, which cancels: the class-1 entry is
  the logistic function of the logit difference and the class-0 entry is one minus it. The logit difference equals
  the sum against the difference of the weight rows plus the difference of the biases by distributivity over the reals.
-/
import proofs.«135976_g39943195853502_cont_8to1_b_465_27_alg».proof.Proof.Gen.ReferenceIdeal.Read
import proofs.«135976_g39943195853502_cont_8to1_b_465_27_alg».proof.Proof.Spec
import Idealize.ShloMosaic.PureOps.Reduce

noncomputable section
open scoped BigOperators

namespace Cert.ReferenceIdeal.RefValue

open Cert.ReferenceIdeal Cert.ReferenceIdeal.Gen Cert.ReferenceIdeal.Read Idealize.ShloMosaic
open Idealize.ShloMosaic.ValueIdx Cert.TwoClass

/-- The reference's logit of class `o` at batch row `p`, position `n`. -/
def lg (x0 : FVec Ideal S128x2048x128 .f32) (x1 : FVec Ideal S2x128 .f32) (x2 : FVec Ideal S2 .f32)
    (p : Fin 128) (n : Fin 2048) (o : Fin 2) : EReal :=
  (∑ k : Fin 128, x0 (ix3 p n k) * x1 (ix2 o k)) + x2 (ix1 o)

/-- The matrix product plus the bias, at an entry. -/
theorem v3_at (x0 : FVec Ideal S128x2048x128 .f32) (x1 : FVec Ideal S2x128 .f32) (x2 : FVec Ideal S2 .f32)
    (p : Fin 128) (n : Fin 2048) (o : Fin 2) :
    val_main_v3 (F := Ideal) x0 x1 x2 (ix3 p n o) = lg x0 x1 x2 p n o := by
  rw [val_main_v3_apply, val_main_v0_apply, val_main_v2_apply, val_main_v1_apply]
  have el : ∀ k : Fin 128, lidx_main_v0 (ix3 p n o) k = ix3 p n k := fun k => funext fun a => Fin.ext (by
    match a with
    | ⟨0, _⟩ => rfl
    | ⟨1, _⟩ => rfl
    | ⟨2, _⟩ => rfl)
  have er : ∀ k : Fin 128, ridx_main_v0 (ix3 p n o) k = ix2 o k := fun k => funext fun a => Fin.ext (by
    match a with
    | ⟨0, _⟩ => rfl
    | ⟨1, _⟩ => rfl)
  have e2 : idx_main_v1 (idx_main_v2 (ix3 p n o)) = ix1 o := funext fun a => Fin.ext (by
    match a with
    | ⟨0, _⟩ => rfl)
  simp only [el, er, e2]
  rfl

/-- The reduced index (p, n) with the class coordinate put back. -/
theorem lift_at (h : S128x2048x2.Reduces [2] S128x2048) (p : Fin 128) (n : Fin 2048) (k : Fin (S128x2048x2.size 2)) :
    h.lift (ix2 p n) k = ix3 p n (⟨k.val, k.isLt⟩ : Fin 2) := by
  funext c; apply Fin.ext
  fin_cases c <;> rfl

/-- The shift the reference subtracts at (p, n) is a real number when both logits there are. -/
theorem v6_real (x0 : FVec Ideal S128x2048x128 .f32) (x1 : FVec Ideal S2x128 .f32) (x2 : FVec Ideal S2 .f32)
    (p : Fin 128) (n : Fin 2048)
    (h3 : ∀ o : Fin 2, ∃ r : ℝ, val_main_v3 (F := Ideal) x0 x1 x2 (ix3 p n o) = (r : EReal)) :
    ∃ μ : ℝ, val_main_v6 (F := Ideal) x0 x1 x2 (ix2 p n) = (μ : EReal) := by
  have hR : S128x2048x2.Reduces [2] S128x2048 := by decide
  obtain ⟨μ, hμ⟩ := fold_max_real (Finset.univ : Finset (Fin (S128x2048x2.size 2))) ⟨⟨0, by decide⟩, Finset.mem_univ _⟩
    (val_main_v3 (F := Ideal) x0 x1 x2 ∘ hR.lift (ix2 p n)) (fun k => by
      obtain ⟨r, hr⟩ := h3 ⟨k.val, k.isLt⟩
      exact ⟨r, by rw [Function.comp_apply, lift_at, hr]⟩)
  refine ⟨μ, ?_⟩
  rw [val_main_v6_apply, val_main_v5_apply, val_main_cst_0_apply]
  unfold val_main_v4
  rw [Host.reduce_eq_fold_single FloatOps.maximumf _ _ reducesTo_S128x2048x2_S128x2048_d2 hR h_S_]
  show max (Ideal.ofBits .f32 0xFF800000#32)
    (Finset.fold max (Ideal.ofBits .f32 0xFF800000#32) (val_main_v3 (F := Ideal) x0 x1 x2 ∘ hR.lift (ix2 p n)) Finset.univ) = _
  rw [neg_inf_f32, hμ, max_bot_left]

/-- The shifted exponential at an entry. -/
theorem v10_at (x0 : FVec Ideal S128x2048x128 .f32) (x1 : FVec Ideal S2x128 .f32) (x2 : FVec Ideal S2 .f32)
    (p : Fin 128) (n : Fin 2048) (o : Fin 2) :
    val_main_v10 (F := Ideal) x0 x1 x2 (ix3 p n o)
      = Ideal.exp (val_main_v3 (F := Ideal) x0 x1 x2 (ix3 p n o) - val_main_v6 (F := Ideal) x0 x1 x2 (ix2 p n)) := by
  rw [val_main_v10_apply, val_main_v9_apply, val_main_v8_apply, val_main_v7_apply]
  have e : idx_main_v7 (idx_main_v8 (ix3 p n o)) = ix2 p n := funext fun a => Fin.ext (by
    match a with
    | ⟨0, _⟩ => rfl
    | ⟨1, _⟩ => rfl)
  rw [e]
  rfl

/-- The quotient at an entry: the shifted exponential over the sum of the two, the sum started at zero. -/
theorem v14_at (x0 : FVec Ideal S128x2048x128 .f32) (x1 : FVec Ideal S2x128 .f32) (x2 : FVec Ideal S2 .f32)
    (p : Fin 128) (n : Fin 2048) (o : Fin 2) :
    val_main_v14 (F := Ideal) x0 x1 x2 (ix3 p n o)
      = Ideal.div (val_main_v10 (F := Ideal) x0 x1 x2 (ix3 p n o))
          (0 + (val_main_v10 (F := Ideal) x0 x1 x2 (ix3 p n (0 : Fin 2)) + val_main_v10 (F := Ideal) x0 x1 x2 (ix3 p n (1 : Fin 2)))) := by
  rw [val_main_v14_apply, val_main_v13_apply, val_main_v12_apply]
  have e : idx_main_v12 (idx_main_v13 (ix3 p n o)) = ix2 p n := funext fun a => Fin.ext (by
    match a with
    | ⟨0, _⟩ => rfl
    | ⟨1, _⟩ => rfl)
  have e0 : idx_main_v11 (ix2 p n) (0 : Fin 2) = ix3 p n (0 : Fin 2) := funext fun a => Fin.ext (by
    match a with
    | ⟨0, _⟩ => rfl
    | ⟨1, _⟩ => rfl
    | ⟨2, _⟩ => rfl)
  have e1 : idx_main_v11 (ix2 p n) (1 : Fin 2) = ix3 p n (1 : Fin 2) := funext fun a => Fin.ext (by
    match a with
    | ⟨0, _⟩ => rfl
    | ⟨1, _⟩ => rfl
    | ⟨2, _⟩ => rfl)
  rw [e, val_main_v11_apply, val_main_cst_1_apply, Fin.sum_univ_two, e0, e1]
  show Ideal.div _ (Ideal.ofBits .f32 0x00000000#32 + _) = _
  rw [Ideal.ofBits_zero_f32]

/-- With real entries the reference's result is the specified function of the arguments. -/
theorem ref_eq (x0 : FVec Ideal S128x2048x128 .f32) (x1 : FVec Ideal S2x128 .f32) (x2 : FVec Ideal S2 .f32)
    (h0 : ∀ i, ∃ r : ℝ, x0 i = (r : EReal)) (h1 : ∀ i, ∃ r : ℝ, x1 i = (r : EReal)) (h2 : ∀ i, ∃ r : ℝ, x2 i = (r : EReal)) :
    val_main_v14 (F := Ideal) x0 x1 x2 = Cert.Spec.out x0 x1 x2 := by
  funext i
  obtain ⟨p, n, o, rfl⟩ : ∃ (p : Fin 128) (n : Fin 2048) (o : Fin 2), i = ix3 p n o := ⟨i 0, i 1, i 2, eq_ix3 i⟩
  choose f0 hf0 using h0
  choose f1 hf1 using h1
  choose f2 hf2 using h2
  have hL : ∀ o : Fin 2, val_main_v3 (F := Ideal) x0 x1 x2 (ix3 p n o)
      = ((∑ k : Fin 128, f0 (ix3 p n k) * f1 (ix2 o k) + f2 (ix1 o) : ℝ) : EReal) := fun o => by
    rw [v3_at]
    unfold lg
    simp only [hf0, hf1, hf2]
    exact affine_coe (fun k => f0 (ix3 p n k)) (fun k => f1 (ix2 o k)) (f2 (ix1 o))
  obtain ⟨μ, hμ⟩ := v6_real x0 x1 x2 p n (fun o => ⟨_, hL o⟩)
  have hD : Cert.Spec.dlogit x0 x1 x2 p n
      = (((∑ k : Fin 128, f0 (ix3 p n k) * f1 (ix2 (1 : Fin 2) k) + f2 (ix1 (1 : Fin 2)))
          - (∑ k : Fin 128, f0 (ix3 p n k) * f1 (ix2 (0 : Fin 2) k) + f2 (ix1 (0 : Fin 2))) : ℝ) : EReal) := by
    unfold Cert.Spec.dlogit
    simp only [hf0, hf1, hf2]
    exact affine_diff_coe (fun k => f0 (ix3 p n k)) (fun k => f1 (ix2 (0 : Fin 2) k)) (fun k => f1 (ix2 (1 : Fin 2) k))
      (f2 (ix1 (0 : Fin 2))) (f2 (ix1 (1 : Fin 2)))
  rw [v14_at, v10_at, v10_at, v10_at]
  simp only [hL, hμ]
  unfold Cert.Spec.out
  show _ = if o.val = 0 then 1 - sigm (Cert.Spec.dlogit x0 x1 x2 p n) else sigm (Cert.Spec.dlogit x0 x1 x2 p n)
  rw [hD]
  match o with
  | ⟨0, _⟩ => exact (soft_zero _ _ _).trans (if_pos rfl).symm
  | ⟨1, _⟩ => exact (soft_one _ _ _).trans (if_neg Nat.one_ne_zero).symm

end Cert.ReferenceIdeal.RefValue
-- ==== Proof.lean ====
/-
  A two-class softmax head against its logistic form, equal over the extended reals.

  The reference takes the input rows x (128 numbers each), a weight matrix W with two rows and a bias b with two
  entries, forms the two logits l₀ = ⟨x, W₀⟩ + b₀ and l₁ = ⟨x, W₁⟩ + b₁, and returns their softmax: each exp (l - max)
  over the sum of the two. The kernel forms the single logit difference ⟨x, W₁ - W₀⟩ + (b₁ - b₀), returns the
  logistic function of it as the class-1 probability and one minus that as the class-0 probability, and stacks the
  two. When every entry of x, W and b is a real number (the precondition) the two agree entry by entry:
  the logit difference is l₁ - l₀ by distributivity, the subtracted maximum is a real shift that cancels from the
  quotient, and exp (l₁ - μ) / (exp (l₀ - μ) + exp (l₁ - μ)) = 1 / (1 + exp (-(l₁ - l₀))).

  The kernel side reads each output plane after the run as one function of the arguments: a grid point writes its
  eight rows of that function, and the sixteen points cover the 128 rows. The reference side reads its run one
  operation at a time. The three frame claims are the programs' runs with the results dropped; the idealization
  rewrote nothing, so there is nothing to preserve.
-/
import proofs.«135976_g39943195853502_cont_8to1_b_465_27_alg».proof.Defs
import proofs.«135976_g39943195853502_cont_8to1_b_465_27_alg».proof.Proof.Gen.Kernel
import proofs.«135976_g39943195853502_cont_8to1_b_465_27_alg».proof.Proof.Gen.Kernel.Frame
import proofs.«135976_g39943195853502_cont_8to1_b_465_27_alg».proof.Proof.Gen.KernelIdeal
import proofs.«135976_g39943195853502_cont_8to1_b_465_27_alg».proof.Proof.Gen.KernelIdeal.Frame
import proofs.«135976_g39943195853502_cont_8to1_b_465_27_alg».proof.Proof.Gen.ReferenceIdeal
import proofs.«135976_g39943195853502_cont_8to1_b_465_27_alg».proof.Proof.Gen.ReferenceIdeal.Run
import proofs.«135976_g39943195853502_cont_8to1_b_465_27_alg».proof.Proof.Gen.ReferenceIdeal.Read
import proofs.«135976_g39943195853502_cont_8to1_b_465_27_alg».proof.Proof.Gen.Pre_finite_inputs
import proofs.«135976_g39943195853502_cont_8to1_b_465_27_alg».proof.Proof.Finite
import proofs.«135976_g39943195853502_cont_8to1_b_465_27_alg».proof.Proof.KValue
import proofs.«135976_g39943195853502_cont_8to1_b_465_27_alg».proof.Proof.RefValue

noncomputable section

namespace Cert.Proof

open Idealize.ShloMosaic Idealize.SL.Sem

/-- The word-level kernel program runs and leaves its arguments as they were. -/
theorem frame_kernel : Cert.frame_Kernel := fun m ρ _ => Cert.Kernel.Gen.frame m ρ

/-- So does the kernel program at the exact instance. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, all of whose entries are real numbers, both programs end with the
    specified function of the arguments as their result. -/
theorem algebraic : Cert.algebraic_KernelIdeal_ReferenceIdeal := by
  intro m ρ m' ρ' hpre hagree
  refine ⟨fun c => Cert.Spec.out (Cert.KernelIdeal.KValue.aX m c) (Cert.KernelIdeal.KValue.aW m c)
    (Cert.KernelIdeal.KValue.aB m c), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  obtain ⟨r0, r1, r2⟩ := Cert.Finite.entries_real _ _ _ (hpre c)
  exact (Cert.ReferenceIdeal.Read.val_main_v14_eq _ _ _).trans (Cert.ReferenceIdeal.RefValue.ref_eq _ _ _ r0 r1 r2)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
